-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1x512x512 : Shape := ⟨4, ![64, 1, 512, 512]⟩
abbrev S_ : Shape := ⟨0, ![]⟩

class Facts : Prop where
  bcast_S_S64x1x512x512 : S_.BroadcastsInDim S64x1x512x512 (![] : Fin 0 → Fin S64x1x512x512.rank)
  reducesTo_S64x1x512x512_S_d0_1_2_3 : S64x1x512x512.ReducesTo [0, 1, 2, 3] S_
  h_S_ : 0 < S_.numel

variable [Facts]

def fn {F : FTy → Type} [FloatOps F] (main_arg0 : FVec F S64x1x512x512 .f32) (main_arg1 : FVec F S64x1x512x512 .f32) : IVec S_ 1 :=
  let main_v0 : FVec F S64x1x512x512 .f32 := Host.absf main_arg0
  let main_cst : FVec F S_ .f32 := constant S_ .f32 0x7F800000#32
  let main_v1 : FVec F S64x1x512x512 .f32 := broadcastInDim S64x1x512x512 ![] bcast_S_S64x1x512x512 main_cst
  let main_v2 : IVec S64x1x512x512 1 := cmpf .olt main_v0 main_v1
  let main_c : IVec S_ 1 := constantI S_ 1 1#1
  let main_v3 : IVec S_ 1 := (fun x v => Host.reduce IntOp.andi x v reducesTo_S64x1x512x512_S_d0_1_2_3 h_S_) main_v2 main_c
  let main_v4 : FVec F S64x1x512x512 .f32 := Host.absf main_arg1
  let main_cst_0 : FVec F S_ .f32 := constant S_ .f32 0x7F800000#32
  let main_v5 : FVec F S64x1x512x512 .f32 := broadcastInDim S64x1x512x512 ![] bcast_S_S64x1x512x512 main_cst_0
  let main_v6 : IVec S64x1x512x512 1 := cmpf .olt main_v4 main_v5
  let main_c_1 : IVec S_ 1 := constantI S_ 1 1#1
  let main_v7 : IVec S_ 1 := (fun x v => Host.reduce IntOp.andi x v reducesTo_S64x1x512x512_S_d0_1_2_3 h_S_) main_v6 main_c_1
  let main_v8 : IVec S_ 1 := andi main_v3 main_v7
  main_v8
-- ==== Kernel.lean ====
abbrev S64x1x512x512 : Shape := ⟨4, ![64, 1, 512, 512]⟩
abbrev S32768x512 : Shape := ⟨2, ![32768, 512]⟩
abbrev S2x1x1 : Shape := ⟨3, ![2, 1, 1]⟩
abbrev S2048x512 : Shape := ⟨2, ![2048, 512]⟩
abbrev S1x1x1 : Shape := ⟨3, ![1, 1, 1]⟩
abbrev S2048 : Shape := ⟨1, ![2048]⟩
abbrev S2048x1 : Shape := ⟨2, ![2048, 1]⟩
abbrev S1 : Shape := ⟨1, ![1]⟩
abbrev S1x1 : Shape := ⟨2, ![1, 1]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S32768x512, .f32⟩
  | .hbm, ⟨3, _⟩ => ⟨S32768x512, .f32⟩
  | .hbm, ⟨4, _⟩ => ⟨S2x1x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S1x1x1, .f32⟩
  | .local _ .vmem, ⟨5, _⟩ => ⟨S1x1x1, .f32⟩
  | _, _ => ⟨S64x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S64x1x512x512_S32768x512 : S64x1x512x512.ShapeCasts S32768x512
  inb_S1x1x1_S1x1x1_0_0_0 : ∀ a, (![0, 0, 0] : Fin 3 → Nat) a + S1x1x1.size a ≤ S1x1x1.size a
  h_S1x1x1 : 0 < S1x1x1.numel
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  natLt_1_32 : 1 < 32
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  shapeCasts_S1x1x1_S1x1x1 : S1x1x1.ShapeCasts S1x1x1
  shapeCasts_S1x1_S1x1x1 : S1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S32768x512.size a
  hwx0_0 : ∀ i : grid0.Coords, EltTy.bits .f32 = 32 ∨ (Rect.block (s := S32768x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S32768x512.size a
  hwx0_1 : ∀ i : grid0.Coords, EltTy.bits .f32 = 32 ∨ (Rect.block (s := S32768x512) S2048x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)

variable [Facts₀]

abbrev win0_0 : Pipeline.Window sig grid0 :=
  Pipeline.Window.ofSpec (Memref.whole main_v0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x1x512x512 : Shape := ⟨4, ![64, 1, 512, 512]⟩
abbrev S16777216 : Shape := ⟨1, ![16777216]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S64x1x512x512, .f32⟩
  | .hbm, ⟨1, _⟩ => ⟨S64x1x512x512, .f32⟩
  | .hbm, ⟨2, _⟩ => ⟨S16777216, .f32⟩
  | .hbm, ⟨3, _⟩ => ⟨S16777216, .f32⟩
  | .hbm, ⟨4, _⟩ => ⟨S_, .f32⟩
  | .hbm, ⟨5, _⟩ => ⟨S16777216, .f32⟩
  | .hbm, ⟨6, _⟩ => ⟨S_, .f32⟩
  | .hbm, ⟨7, _⟩ => ⟨S16777216, .f32⟩
  | .hbm, ⟨8, _⟩ => ⟨S16777216, .i1⟩
  | .hbm, ⟨9, _⟩ => ⟨S_, .f32⟩
  | .hbm, ⟨10, _⟩ => ⟨S16777216, .f32⟩
  | .hbm, ⟨11, _⟩ => ⟨S16777216, .i1⟩
  | .hbm, ⟨12, _⟩ => ⟨S16777216, .i1⟩
  | .hbm, ⟨13, _⟩ => ⟨S_, .f32⟩
  | .hbm, ⟨14, _⟩ => ⟨S_, .f32⟩
  | .hbm, ⟨15, _⟩ => ⟨S16777216, .f32⟩
  | .hbm, ⟨16, _⟩ => ⟨S16777216, .f32⟩
  | .hbm, ⟨17, _⟩ => ⟨S_, .f32⟩
  | .hbm, ⟨18, _⟩ => ⟨S16777216, .f32⟩
  | .hbm, ⟨19, _⟩ => ⟨S16777216, .i1⟩
  | .hbm, ⟨20, _⟩ => ⟨S_, .f32⟩
  | .hbm, ⟨21, _⟩ => ⟨S16777216, .f32⟩
  | .hbm, ⟨22, _⟩ => ⟨S16777216, .i1⟩
  | .hbm, ⟨23, _⟩ => ⟨S16777216, .i1⟩
  | .hbm, ⟨24, _⟩ => ⟨S_, .f32⟩
  | .hbm, ⟨25, _⟩ => ⟨S_, .f32⟩
  | .hbm, ⟨26, _⟩ => ⟨S16777216, .f32⟩
  | .hbm, ⟨27, _⟩ => ⟨S16777216, .f32⟩
  | .hbm, ⟨28, _⟩ => ⟨S_, .f32⟩
  | .hbm, ⟨29, _⟩ => ⟨S16777216, .f32⟩
  | .hbm, ⟨30, _⟩ => ⟨S16777216, .i1⟩
  | .hbm, ⟨31, _⟩ => ⟨S_, .f32⟩
  | .hbm, ⟨32, _⟩ => ⟨S16777216, .f32⟩
  | .hbm, ⟨33, _⟩ => ⟨S16777216, .i1⟩
  | .hbm, ⟨34, _⟩ => ⟨S16777216, .i1⟩
  | .hbm, ⟨35, _⟩ => ⟨S_, .f32⟩
  | .hbm, ⟨36, _⟩ => ⟨S_, .f32⟩
  | .hbm, ⟨37, _⟩ => ⟨S16777216, .f32⟩
  | .hbm, ⟨38, _⟩ => ⟨S16777216, .f32⟩
  | .hbm, ⟨39, _⟩ => ⟨S_, .f32⟩
  | .hbm, ⟨40, _⟩ => ⟨S16777216, .f32⟩
  | .hbm, ⟨41, _⟩ => ⟨S16777216, .i1⟩
  | .hbm, ⟨42, _⟩ => ⟨S_, .f32⟩
  | .hbm, ⟨43, _⟩ => ⟨S16777216, .f32⟩
  | .hbm, ⟨44, _⟩ => ⟨S16777216, .i1⟩
  | .hbm, ⟨45, _⟩ => ⟨S16777216, .i1⟩
  | .hbm, ⟨46, _⟩ => ⟨S_, .f32⟩
  | .hbm, ⟨47, _⟩ => ⟨S_, .f32⟩
  | .hbm, ⟨48, _⟩ => ⟨S16777216, .f32⟩
  | .hbm, ⟨49, _⟩ => ⟨S16777216, .f32⟩
  | .hbm, ⟨50, _⟩ => ⟨S_, .f32⟩
  | .hbm, ⟨51, _⟩ => ⟨S16777216, .f32⟩
  | .hbm, ⟨52, _⟩ => ⟨S16777216, .i1⟩
  | .hbm, ⟨53, _⟩ => ⟨S_, .f32⟩
  | .hbm, ⟨54, _⟩ => ⟨S_, .f32⟩
  | .hbm, ⟨55, _⟩ => ⟨S16777216, .f32⟩
  | .hbm, ⟨56, _⟩ => ⟨S16777216, .f32⟩
  | .hbm, ⟨57, _⟩ => ⟨S16777216, .f32⟩
  | .hbm, ⟨58, _⟩ => ⟨S16777216, .f32⟩
  | .hbm, ⟨59, _⟩ => ⟨S16777216, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | _, _ => ⟨S64x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_call0_v0 : Ref sig .tc := ⟨.hbm, 14, rfl⟩
abbrev main_call0_v1 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_cst_4 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_call1_v0 : Ref sig .tc := ⟨.hbm, 25, rfl⟩
abbrev main_call1_v1 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_cst_7 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_8 : Ref sig .tc := ⟨.hbm, 35, rfl⟩
abbrev main_call2_v0 : Ref sig .tc := ⟨.hbm, 36, rfl⟩
abbrev main_call2_v1 : Ref sig .tc := ⟨.hbm, 37, rfl⟩
abbrev main_v20 : Ref sig .tc := ⟨.hbm, 38, rfl⟩
abbrev main_cst_9 : Ref sig .tc := ⟨.hbm, 39, rfl⟩
abbrev main_v21 : Ref sig .tc := ⟨.hbm, 40, rfl⟩
abbrev main_v22 : Ref sig .tc := ⟨.hbm, 41, rfl⟩
abbrev main_cst_10 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_11 : Ref sig .tc := ⟨.hbm, 46, rfl⟩
abbrev main_call3_v0 : Ref sig .tc := ⟨.hbm, 47, rfl⟩
abbrev main_call3_v1 : Ref sig .tc := ⟨.hbm, 48, rfl⟩
abbrev main_v26 : Ref sig .tc := ⟨.hbm, 49, rfl⟩
abbrev main_cst_12 : Ref sig .tc := ⟨.hbm, 50, rfl⟩
abbrev main_v27 : Ref sig .tc := ⟨.hbm, 51, rfl⟩
abbrev main_v28 : Ref sig .tc := ⟨.hbm, 52, rfl⟩
abbrev main_cst_13 : Ref sig .tc := ⟨.hbm, 53, rfl⟩
abbrev main_call4_v0 : Ref sig .tc := ⟨.hbm, 54, rfl⟩
abbrev main_call4_v1 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_14 : Ref sig .tc := ⟨.hbm, 60, rfl⟩
abbrev main_v33 : Ref sig .tc := ⟨.hbm, 61, rfl⟩
abbrev main_cst_15 : Ref sig .tc := ⟨.hbm, 62, rfl⟩
abbrev main_v34 : Ref sig .tc := ⟨.hbm, 63, rfl⟩

abbrev nD : Nat := 1
abbrev τ : Topo := Topo.v7x

variable {F : FTy → Type} [FloatOps F]

class Facts₀ : Prop where
  shapeCasts_S64x1x512x512_S16777216 : S64x1x512x512.ShapeCasts S16777216
  bcast_S_S16777216 : S_.BroadcastsInDim S16777216 (![] : Fin 0 → Fin S16777216.rank)
  reducesTo_S16777216_S_d0 : S16777216.ReducesTo [0] S_
  h_S_ : 0 < S_.numel

variable [Facts₀]

class Facts : Prop extends Facts₀ where

variable [Facts]
-- ==== Proof.Weights.lean ====
/-
  The per-element arithmetic of a bucket-weighted squared error, on the extended reals.

  Each label `x` gets a weight by the bucket it falls in: below 0 the weight is 0, on [0, 20) it is 1, on [20, 30) it
  is 2, on [30, 40) it is 5, on [40, 60) it is 10, and from 60 on it is 30.  The weight is written two ways.
  • As a sum of steps: one unit for each of the thresholds 0 and 20 that `x` has reached, three for 30, five for 40,
    twenty for 60 (`stepWeight`).  The steps add up: 1, 1 + 1, 2 + 3, 5 + 5, 10 + 20.
  • As a chain of choices: starting from 0, the value 1 is chosen on [0, 20), then 2 on [20, 30), 5 on [30, 40), 10 on
    [40, 60) and last 30 on [60, ∞) (`bucketWeight`).
  The two agree at every extended real, the two infinities included (`stepWeight_eq_bucketWeight`): the thresholds are
  ordered, so which of them `x` has reached is decided by the largest one reached, and in each of the six resulting
  cases both sides are one number.  The weighted squared error of a label `x` against a prediction `y` is the weight
  times `x - y` times `x - y`, the same expression of the weight on both sides (`stepTerm_eq_bucketTerm`).
-/
import Idealize.ShloMosaic.PureOps.Ideal

noncomputable section

namespace Cert.WeightedError

open Idealize.ShloMosaic

/-! ## The numbers the two programs spell -/

theorem ofBits_0 : Ideal.ofBits .f32 0x00000000#32 = ((0 : ℝ) : EReal) := by
  simp [Ideal.ofBits, Ideal.ieee]
theorem ofBits_1 : Ideal.ofBits .f32 0x3F800000#32 = ((1 : ℝ) : EReal) := by
  simp [Ideal.ofBits, Ideal.ieee, -EReal.coe_mul]; norm_num
theorem ofBits_2 : Ideal.ofBits .f32 0x40000000#32 = ((2 : ℝ) : EReal) := by
  simp [Ideal.ofBits, Ideal.ieee, -EReal.coe_mul]; norm_num
theorem ofBits_3 : Ideal.ofBits .f32 0x40400000#32 = ((3 : ℝ) : EReal) := by
  simp [Ideal.ofBits, Ideal.ieee, -EReal.coe_mul]; norm_num
theorem ofBits_5 : Ideal.ofBits .f32 0x40A00000#32 = ((5 : ℝ) : EReal) := by
  simp [Ideal.ofBits, Ideal.ieee, -EReal.coe_mul]; norm_num
theorem ofBits_10 : Ideal.ofBits .f32 0x41200000#32 = ((10 : ℝ) : EReal) := by
  simp [Ideal.ofBits, Ideal.ieee, -EReal.coe_mul]; norm_num
theorem ofBits_20 : Ideal.ofBits .f32 0x41A00000#32 = ((20 : ℝ) : EReal) := by
  simp [Ideal.ofBits, Ideal.ieee, -EReal.coe_mul]; norm_num
theorem ofBits_30 : Ideal.ofBits .f32 0x41F00000#32 = ((30 : ℝ) : EReal) := by
  simp [Ideal.ofBits, Ideal.ieee, -EReal.coe_mul]; norm_num
theorem ofBits_40 : Ideal.ofBits .f32 0x42200000#32 = ((40 : ℝ) : EReal) := by
  simp [Ideal.ofBits, Ideal.ieee, -EReal.coe_mul]; norm_num
theorem ofBits_60 : Ideal.ofBits .f32 0x42700000#32 = ((60 : ℝ) : EReal) := by
  simp [Ideal.ofBits, Ideal.ieee, -EReal.coe_mul]; norm_num

/-! ## The two forms of the weight -/

/-- One step: the number 1 when `x` has reached the threshold whose pattern is `c`, else 0 — the comparison's bit,
    widened to a 32-bit word and read as a signed integer. -/
def reached (x : EReal) (c : BitVec 32) : EReal :=
  ((((Ideal.cmp .oge x (Ideal.ofBits .f32 c)).setWidth 32).toInt : ℝ) : EReal)

/-- The weight as a sum of steps: 1·[0 ≤ x] + 1·[20 ≤ x] + 3·[30 ≤ x] + 5·[40 ≤ x] + 20·[60 ≤ x]. -/
def stepWeight (x : EReal) : EReal :=
  reached x 0x00000000#32 + reached x 0x41A00000#32 + Ideal.ofBits .f32 0x40400000#32 * reached x 0x41F00000#32
    + Ideal.ofBits .f32 0x40A00000#32 * reached x 0x42200000#32 + Ideal.ofBits .f32 0x41A00000#32 * reached x 0x42700000#32

/-- The bit of "`x` lies in the half-open interval from `lo` to `hi`". -/
def within (x : EReal) (lo hi : BitVec 32) : BitVec 1 :=
  IntOp.andi (Ideal.cmp .oge x (Ideal.ofBits .f32 lo)) (Ideal.cmp .olt x (Ideal.ofBits .f32 hi))

/-- The weight as a chain of choices, the last choice outermost. -/
def bucketWeight (x : EReal) : EReal :=
  Scalar.select (Ideal.cmp .oge x (Ideal.ofBits .f32 0x42700000#32)) (Ideal.ofBits .f32 0x41F00000#32)
    (Scalar.select (within x 0x42200000#32 0x42700000#32) (Ideal.ofBits .f32 0x41200000#32)
      (Scalar.select (within x 0x41F00000#32 0x42200000#32) (Ideal.ofBits .f32 0x40A00000#32)
        (Scalar.select (within x 0x41A00000#32 0x41F00000#32) (Ideal.ofBits .f32 0x40000000#32)
          (Scalar.select (within x 0x00000000#32 0x41A00000#32) (Ideal.ofBits .f32 0x3F800000#32)
            (Ideal.ofBits .f32 0x00000000#32)))))

/-- The weighted squared error of one element, the weight as a sum of steps. -/
def stepTerm (x y : EReal) : EReal := stepWeight x * (x - y) * (x - y)

/-- The weighted squared error of one element, the weight as a chain of choices. -/
def bucketTerm (x y : EReal) : EReal := bucketWeight x * (x - y) * (x - y)

/-! ## They agree -/

/-- The comparison "at least" is the order's: its bit is set exactly when the threshold is below or at `x`. -/
theorem cmp_oge (x c : EReal) : Ideal.cmp .oge x c = BitVec.ofBool (decide (c ≤ x)) := rfl
/-- The comparison "less than" is the order's. -/
theorem cmp_olt (x c : EReal) : Ideal.cmp .olt x c = BitVec.ofBool (decide (x < c)) := rfl

theorem top_of_le {x : EReal} {c : BitVec 32} (h : Ideal.ofBits .f32 c ≤ x) : Ideal.cmp .oge x (Ideal.ofBits .f32 c) = 1#1 := by
  rw [cmp_oge, decide_eq_true h]; rfl

theorem top_of_not_le {x : EReal} {c : BitVec 32} (h : ¬Ideal.ofBits .f32 c ≤ x) : Ideal.cmp .oge x (Ideal.ofBits .f32 c) = 0#1 := by
  rw [cmp_oge, decide_eq_false h]; rfl

theorem reached_of_le {x : EReal} {c : BitVec 32} (h : Ideal.ofBits .f32 c ≤ x) : reached x c = ((1 : ℝ) : EReal) := by
  unfold reached
  rw [top_of_le h]
  norm_num

theorem reached_of_not_le {x : EReal} {c : BitVec 32} (h : ¬Ideal.ofBits .f32 c ≤ x) : reached x c = ((0 : ℝ) : EReal) := by
  unfold reached
  rw [top_of_not_le h]
  norm_num

theorem within_of {x : EReal} {lo hi : BitVec 32} (h1 : Ideal.ofBits .f32 lo ≤ x) (h2 : x < Ideal.ofBits .f32 hi) :
    within x lo hi = 1#1 := by
  unfold within
  rw [top_of_le h1, cmp_olt, decide_eq_true h2]
  rfl

theorem within_of_not_le {x : EReal} {lo hi : BitVec 32} (h1 : ¬Ideal.ofBits .f32 lo ≤ x) : within x lo hi = 0#1 := by
  unfold within
  rw [top_of_not_le h1, cmp_olt]
  cases decide (x < Ideal.ofBits .f32 hi) <;> rfl

theorem sel_one {a b : EReal} : Scalar.select 1#1 a b = a := if_pos rfl
theorem sel_zero {a b : EReal} : Scalar.select 0#1 a b = b := if_neg (by decide)

/-- The thresholds in their order. -/
theorem le_0_20 : Ideal.ofBits .f32 0x00000000#32 ≤ Ideal.ofBits .f32 0x41A00000#32 := by
  rw [ofBits_0, ofBits_20]; exact_mod_cast (by norm_num : (0 : ℝ) ≤ 20)
theorem le_20_30 : Ideal.ofBits .f32 0x41A00000#32 ≤ Ideal.ofBits .f32 0x41F00000#32 := by
  rw [ofBits_20, ofBits_30]; exact_mod_cast (by norm_num : (20 : ℝ) ≤ 30)
theorem le_30_40 : Ideal.ofBits .f32 0x41F00000#32 ≤ Ideal.ofBits .f32 0x42200000#32 := by
  rw [ofBits_30, ofBits_40]; exact_mod_cast (by norm_num : (30 : ℝ) ≤ 40)
theorem le_40_60 : Ideal.ofBits .f32 0x42200000#32 ≤ Ideal.ofBits .f32 0x42700000#32 := by
  rw [ofBits_40, ofBits_60]; exact_mod_cast (by norm_num : (40 : ℝ) ≤ 60)

/-- The sum of steps is the chain of choices, at every extended real: decide the largest threshold reached. -/
theorem stepWeight_eq_bucketWeight (x : EReal) : stepWeight x = bucketWeight x := by
  unfold stepWeight bucketWeight
  by_cases h60 : Ideal.ofBits .f32 0x42700000#32 ≤ x
  · -- 60 ≤ x: every threshold is reached; 1 + 1 + 3 + 5 + 20 = 30
    have h40 := le_40_60.trans h60
    have h30 := le_30_40.trans h40
    have h20 := le_20_30.trans h30
    have h0 := le_0_20.trans h20
    rw [reached_of_le h0, reached_of_le h20, reached_of_le h30, reached_of_le h40, reached_of_le h60, top_of_le h60, sel_one,
      ofBits_3, ofBits_5, ofBits_20, ofBits_30]
    exact_mod_cast (by norm_num : (1 : ℝ) + 1 + 3 * 1 + 5 * 1 + 20 * 1 = 30)
  · rw [reached_of_not_le h60, top_of_not_le h60, sel_zero]
    by_cases h40 : Ideal.ofBits .f32 0x42200000#32 ≤ x
    · -- 40 ≤ x < 60: 1 + 1 + 3 + 5 = 10
      have h30 := le_30_40.trans h40
      have h20 := le_20_30.trans h30
      have h0 := le_0_20.trans h20
      rw [reached_of_le h0, reached_of_le h20, reached_of_le h30, reached_of_le h40, within_of h40 (not_le.mp h60), sel_one,
        ofBits_3, ofBits_5, ofBits_20, ofBits_10]
      exact_mod_cast (by norm_num : (1 : ℝ) + 1 + 3 * 1 + 5 * 1 + 20 * 0 = 10)
    · rw [reached_of_not_le h40, within_of_not_le h40, sel_zero]
      by_cases h30 : Ideal.ofBits .f32 0x41F00000#32 ≤ x
      · -- 30 ≤ x < 40: 1 + 1 + 3 = 5
        have h20 := le_20_30.trans h30
        have h0 := le_0_20.trans h20
        rw [reached_of_le h0, reached_of_le h20, reached_of_le h30, within_of h30 (not_le.mp h40), sel_one,
          ofBits_3, ofBits_5, ofBits_20]
        exact_mod_cast (by norm_num : (1 : ℝ) + 1 + 3 * 1 + 5 * 0 + 20 * 0 = 5)
      · rw [reached_of_not_le h30, within_of_not_le h30, sel_zero]
        by_cases h20 : Ideal.ofBits .f32 0x41A00000#32 ≤ x
        · -- 20 ≤ x < 30: 1 + 1 = 2
          have h0 := le_0_20.trans h20
          rw [reached_of_le h0, reached_of_le h20, within_of h20 (not_le.mp h30), sel_one, ofBits_3, ofBits_5, ofBits_20, ofBits_2]
          exact_mod_cast (by norm_num : (1 : ℝ) + 1 + 3 * 0 + 5 * 0 + 20 * 0 = 2)
        · rw [reached_of_not_le h20, within_of_not_le h20, sel_zero]
          by_cases h0 : Ideal.ofBits .f32 0x00000000#32 ≤ x
          · -- 0 ≤ x < 20: 1
            rw [reached_of_le h0, within_of h0 (not_le.mp h20), sel_one, ofBits_3, ofBits_5, ofBits_20, ofBits_1]
            exact_mod_cast (by norm_num : (1 : ℝ) + 0 + 3 * 0 + 5 * 0 + 20 * 0 = 1)
          · -- x < 0: nothing reached
            rw [reached_of_not_le h0, within_of_not_le h0, sel_zero, ofBits_3, ofBits_5, ofBits_20, ofBits_0]
            exact_mod_cast (by norm_num : (0 : ℝ) + 0 + 3 * 0 + 5 * 0 + 20 * 0 = 0)

/-- So the two weighted squared errors of an element are one number. -/
theorem stepTerm_eq_bucketTerm (x y : EReal) : stepTerm x y = bucketTerm x y := by
  unfold stepTerm bucketTerm
  rw [stepWeight_eq_bucketWeight]

end Cert.WeightedError

end
-- ==== Proof.LibFlatSums.lean ====
/-
  Finite sums over a flattened range and over the indices of small shapes.

  • `sum_rows`: the numbers below `a · b` fall into `a` consecutive runs of `b`; position `j` of run `i` is the number
    `i · b + j`.  Summing a function of the number run by run, and within each run position by position, is summing it
    over all the numbers below `a · b` (every number is `i · b + j` for exactly one pair).
  • `sum_idx1`: a sum over the indices of a vector [n] is the sum over its `n` coordinates.
  • `sum_idx_n11`: a sum over the indices of an [n, 1, 1] array is the sum over its first coordinate, the other two
    coordinates being zero.
-/
import Idealize.ShloMosaic.Lib.ValueIdx
import Mathlib.Algebra.BigOperators.Fin
import Mathlib.Logic.Equiv.Fin.Basic

namespace Cert.Lib.FlatSums

open Idealize.ShloMosaic Idealize.ShloMosaic.ValueIdx

/-- Run by run, position by position: the sum over all the numbers below `n = a · b`. -/
theorem sum_rows {M : Type*} [AddCommMonoid M] (a b n : ℕ) (hn : a * b = n) (g : ℕ → M) :
    ∑ i : Fin a, ∑ j : Fin b, g (i.val * b + j.val) = ∑ k : Fin n, g k.val := by
  subst hn
  refine (Fintype.sum_prod_type' fun (i : Fin a) (j : Fin b) => g (i.val * b + j.val)).symm.trans ?_
  exact Fintype.sum_equiv finProdFinEquiv _ _ fun x => congrArg g (by
    rw [finProdFinEquiv_apply_val, Nat.mul_comm, Nat.add_comm])

/-- The indices of a vector [n] are its coordinates. -/
def idx1Equiv (n : ℕ) : (⟨1, ![n]⟩ : Shape).Idx ≃ Fin n where
  toFun j := j 0
  invFun k := ix1 k
  left_inv j := (eq_ix1 j).symm
  right_inv _ := rfl

theorem sum_idx1 {M : Type*} [AddCommMonoid M] {n : ℕ} (f : (⟨1, ![n]⟩ : Shape).Idx → M) :
    ∑ j, f j = ∑ k : Fin n, f (ix1 k) :=
  Fintype.sum_equiv (idx1Equiv n) f (fun k => f (ix1 k)) fun j => congrArg f (eq_ix1 j)

/-- An index of an [n, 1, 1] array is its first coordinate followed by two zeros. -/
theorem eq_ix3_n11 {n : ℕ} (j : (⟨3, ![n, 1, 1]⟩ : Shape).Idx) : j = ix3 (j 0) (0 : Fin 1) (0 : Fin 1) := by
  funext d
  apply Fin.ext
  match d with
  | ⟨0, _⟩ => rfl
  | ⟨1, _⟩ => have h : (j 1).val < 1 := (j 1).isLt; show (j 1).val = 0; omega
  | ⟨2, _⟩ => have h : (j 2).val < 1 := (j 2).isLt; show (j 2).val = 0; omega

/-- The indices of an [n, 1, 1] array are its first coordinates. -/
def idxN11Equiv (n : ℕ) : (⟨3, ![n, 1, 1]⟩ : Shape).Idx ≃ Fin n where
  toFun j := j 0
  invFun p := ix3 p (0 : Fin 1) (0 : Fin 1)
  left_inv j := (eq_ix3_n11 j).symm
  right_inv _ := rfl

theorem sum_idx_n11 {M : Type*} [AddCommMonoid M] {n : ℕ} (f : (⟨3, ![n, 1, 1]⟩ : Shape).Idx → M) :
    ∑ j, f j = ∑ p : Fin n, f (ix3 p (0 : Fin 1) (0 : Fin 1)) :=
  Fintype.sum_equiv (idxN11Equiv n) f (fun p => f (ix3 p (0 : Fin 1) (0 : Fin 1))) fun j => congrArg f (eq_ix3_n11 j)

end Cert.Lib.FlatSums
-- ==== Proof.Mean.lean ====
/-
  The mean of the bucket-weighted squared errors of two [64, 1, 512, 512] arrays, on the extended reals.

  The 16,777,216 elements of such an array are listed in row-major order: element `k` sits at
  `(k / 262144, 0, k / 512 mod 512, k mod 512)` (`flatIdx`).  The weighted squared error of element `k` of the labels
  against element `k` of the predictions is `flatTerm` (zero past the end of the list, so that it is a function of every
  natural number), and the result both programs compute is the sum of these, started from zero, divided by 2²⁴ = 16,777,216
  (`meanError`).  `sum_by_blocks` re-groups the sum the way a grid of 2 × 8 blocks of 2048 rows of 512 lanes visits the
  elements: addition on the extended reals is commutative and associative, so any grouping of a finite sum is the same
  number; no distributivity is used and no finiteness of the entries is needed.
-/
import proofs.«147176_j833223655948_2_alg».proof.Proof.Weights
import proofs.«147176_j833223655948_2_alg».proof.Proof.LibFlatSums
import Idealize.ShloMosaic.Lib.ValueIdx
import Idealize.ShloMosaic.PureOps.Ideal

noncomputable section

namespace Cert.WeightedError

open Idealize.ShloMosaic Idealize.ShloMosaic.ValueIdx

/-- The shape of the two arguments. -/
abbrev SArg : Shape := ⟨4, ![64, 1, 512, 512]⟩

/-- Element `k` of the row-major list of an argument's elements. -/
def flatIdx (k : ℕ) (h : k < 16777216) : SArg.Idx :=
  ix4 (⟨k / 262144, by omega⟩ : Fin 64) (⟨0, Nat.one_pos⟩ : Fin 1) (⟨k / 512 % 512, by omega⟩ : Fin 512) (⟨k % 512, by omega⟩ : Fin 512)

/-- The weighted squared error of element `k`; zero past the end. -/
def flatTerm (L P : SArg.Idx → EReal) (k : ℕ) : EReal :=
  if h : k < 16777216 then bucketTerm (L (flatIdx k h)) (P (flatIdx k h)) else 0

/-- The mean: the sum of all the element errors from zero, divided by the element count 2²⁴. -/
def meanError (L P : SArg.Idx → EReal) : EReal :=
  Ideal.div (Ideal.ofBits .f32 0x00000000#32 + ∑ k : Fin 16777216, flatTerm L P k.val) (Ideal.ofBits .f32 0x4B800000#32)

/-- The sum over all elements, grouped as 2 halves of 8 blocks of 2048 rows of 512 lanes: element `q` of row `r` of block
    `s` of half `p` is number `(((8 p + s) · 2048) + r) · 512 + q` of the list. -/
theorem sum_by_blocks (g : ℕ → EReal) :
    ∑ p : Fin 2, ∑ s ∈ Finset.range 8, ∑ r : Fin 2048, ∑ q : Fin 512, g (((8 * p.val + s) * 2048 + r.val) * 512 + q.val)
      = ∑ k : Fin 16777216, g k.val := by
  have rows : ∀ T : ℕ, ∑ r : Fin 2048, ∑ q : Fin 512, g ((T * 2048 + r.val) * 512 + q.val)
      = ∑ k : Fin 1048576, g (T * 1048576 + k.val) := fun T =>
    (Finset.sum_congr rfl fun r _ => Finset.sum_congr rfl fun q _ => congrArg g (by omega)).trans
      (Cert.Lib.FlatSums.sum_rows 2048 512 1048576 (by norm_num) fun k => g (T * 1048576 + k))
  have blocks : ∀ p : ℕ, ∑ s ∈ Finset.range 8, ∑ k : Fin 1048576, g ((8 * p + s) * 1048576 + k.val)
      = ∑ k : Fin 8388608, g (p * 8388608 + k.val) := fun p =>
    (Finset.sum_range fun s => ∑ k : Fin 1048576, g ((8 * p + s) * 1048576 + k.val)).trans
      ((Finset.sum_congr rfl fun s _ => Finset.sum_congr rfl fun k _ => congrArg g (by omega)).trans
        (Cert.Lib.FlatSums.sum_rows 8 1048576 8388608 (by norm_num) fun k => g (p * 8388608 + k)))
  calc ∑ p : Fin 2, ∑ s ∈ Finset.range 8, ∑ r : Fin 2048, ∑ q : Fin 512, g (((8 * p.val + s) * 2048 + r.val) * 512 + q.val)
      = ∑ p : Fin 2, ∑ s ∈ Finset.range 8, ∑ k : Fin 1048576, g ((8 * p.val + s) * 1048576 + k.val) :=
        Finset.sum_congr rfl fun p _ => Finset.sum_congr rfl fun s _ => rows (8 * p.val + s)
    _ = ∑ p : Fin 2, ∑ k : Fin 8388608, g (p.val * 8388608 + k.val) :=
        Finset.sum_congr rfl fun p _ => blocks p.val
    _ = ∑ k : Fin 16777216, g k.val := Cert.Lib.FlatSums.sum_rows 2 8388608 16777216 (by norm_num) g

end Cert.WeightedError

end
-- ==== Proof.Blocks.lean ====
/-
  The blocks the kernel's two input windows read, as elements of the argument arrays.

  Before the kernel runs, each [64, 1, 512, 512] argument is viewed as a matrix of 32768 rows of 512 lanes, which moves no
  element: row `R`, lane `q` of the matrix is element `R · 512 + q` of the argument's row-major list.  At grid point `t`
  (the points of the 2 × 8 grid counted in order, `t = 8 p + s`) both windows sit at block row `t`, so row `r`, lane `q` of
  the block is row `t · 2048 + r` of the matrix: element `(t · 2048 + r) · 512 + q` of the list (`labels_apply`,
  `predictions_apply`).  The output window at point `t` sits at block `t / 8` of the [2, 1, 1] result (`index_facts`).
-/
import proofs.«147176_j833223655948_2_alg».proof.Proof.Gen.KernelIdeal.Frame
import proofs.«147176_j833223655948_2_alg».proof.Proof.Mean
import Idealize.ShloMosaic.Lib.Pipeline.Value
import Idealize.ShloMosaic.Lib.StableHlo.Run
import Idealize.ShloMosaic.Lib.ValueIdx
import Idealize.ShloMosaic.Lib.Tactic

noncomputable section

namespace Cert.KernelIdeal.Blocks

open Idealize.ShloMosaic Idealize.ShloMosaic.TcCoe Idealize.SL.Sem Idealize.ShloMosaic.ValueIdx
open Cert.KernelIdeal Cert.KernelIdeal.Gen Cert.WeightedError

variable {F : FTy → Type} [FloatOps F]
variable (m : (ℓ : Loc nD τ sig) → Buf (Elt F) ℓ)

/-- Where the three windows sit at grid point `t`: the inputs at block row `t`, the output at block `t / 8`. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 8 :=
  (by decide +kernel : ∀ t : Fin grid0.N,
    win0_0.index t (0 : Fin 2) = t.val ∧ win0_0.index t (1 : Fin 2) = 0
    ∧ win0_1.index t (0 : Fin 2) = t.val ∧ win0_1.index t (1 : Fin 2) = 0
    ∧ win0_2.index t (0 : Fin 3) = t.val / 8)

/-- The matrix the first window reads is the first argument viewed as 32768 × 512. -/
theorem V_labels (c : Dev nD) :
    (V m c main_v0 : S32768x512.Idx → Elt F .f32)
      = shapeCast S32768x512 (m ((c : Thread nD τ).loc main_arg0)) shapeCasts_S64x1x512x512_S32768x512 := by
  show StableHlo.after hostOps0 (fun b => m (c, b)) (Proc.devRef .tc main_v0) = _
  after_results
  rfl

/-- The matrix the second window reads is the second argument viewed as 32768 × 512. -/
theorem V_predictions (c : Dev nD) :
    (V m c main_v1 : S32768x512.Idx → Elt F .f32)
      = shapeCast S32768x512 (m ((c : Thread nD τ).loc main_arg1)) shapeCasts_S64x1x512x512_S32768x512 := by
  show StableHlo.after hostOps0 (fun b => m (c, b)) (Proc.devRef .tc main_v1) = _
  after_results
  rfl

/-- Row `r`, lane `q` of the label block at point `t` is element `(t · 2048 + r) · 512 + q` of the first argument. -/
theorem labels_apply (c : Dev nD) (t : Fin cfg0.N) (r : Fin 2048) (q : Fin 512)
    (h : (t.val * 2048 + r.val) * 512 + q.val < 16777216) :
    (iblk m c 0 t : Vec F S2048x512 .f32) (ix2 r q)
      = m ((c : Thread nD τ).loc main_arg0) (flatIdx ((t.val * 2048 + r.val) * 512 + q.val) h) := by
  unfold iblk
  rw [View.read_apply]
  show V m c main_v0 _ = _
  rw [V_labels]
  refine shapeCast_apply _ _ _ _ ?_
  show (S64x1x512x512.rowMajor (flatIdx ((t.val * 2048 + r.val) * 512 + q.val) h)).val = (S32768x512.rowMajor _).val
  rw [Shape.rowMajor_val_four, Shape.rowMajor_val_two]
  show ((((t.val * 2048 + r.val) * 512 + q.val) / 262144 * 1 + 0) * 512 + ((t.val * 2048 + r.val) * 512 + q.val) / 512 % 512) * 512
        + ((t.val * 2048 + r.val) * 512 + q.val) % 512
      = (win0_0.index t 0 * 2048 + 1 * r.val) * 512 + (win0_0.index t 1 * 512 + 1 * q.val)
  rw [(index_facts t).1, (index_facts t).2.1]
  omega

/-- Row `r`, lane `q` of the prediction block at point `t` is element `(t · 2048 + r) · 512 + q` of the second argument. -/
theorem predictions_apply (c : Dev nD) (t : Fin cfg0.N) (r : Fin 2048) (q : Fin 512)
    (h : (t.val * 2048 + r.val) * 512 + q.val < 16777216) :
    (iblk m c 1 t : Vec F S2048x512 .f32) (ix2 r q)
      = m ((c : Thread nD τ).loc main_arg1) (flatIdx ((t.val * 2048 + r.val) * 512 + q.val) h) := by
  unfold iblk
  rw [View.read_apply]
  show V m c main_v1 _ = _
  rw [V_predictions]
  refine shapeCast_apply _ _ _ _ ?_
  show (S64x1x512x512.rowMajor (flatIdx ((t.val * 2048 + r.val) * 512 + q.val) h)).val = (S32768x512.rowMajor _).val
  rw [Shape.rowMajor_val_four, Shape.rowMajor_val_two]
  show ((((t.val * 2048 + r.val) * 512 + q.val) / 262144 * 1 + 0) * 512 + ((t.val * 2048 + r.val) * 512 + q.val) / 512 % 512) * 512
        + ((t.val * 2048 + r.val) * 512 + q.val) % 512
      = (win0_1.index t 0 * 2048 + 1 * r.val) * 512 + (win0_1.index t 1 * 512 + 1 * q.val)
  rw [(index_facts t).2.2.1, (index_facts t).2.2.2.1]
  omega

end Cert.KernelIdeal.Blocks

end
-- ==== Proof.Pieces.lean ====
/-
  What the body leaves in its one-element output block, case by case.

  The body runs in one of two ways.  On the first step of a run of eight (the second grid coordinate is zero) it first
  stores a zero block, reads it back, and stores the zero plus the block's total.  On every other step it reads what the
  step before left and stores that plus the block's total.  In both cases the last store covers the whole one-element
  block, so what the block holds afterwards is that store's value: the accumulating store applied to the column of row
  sums of the two input blocks and to the zero block (`first_step`) or to the running contents (`later_step`).  Both hold
  for any reading of the floats.
-/
import proofs.«147176_j833223655948_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A later step of a run: the output block, holding `acc`, ends holding the accumulating store's value of the row
    sums of the input blocks `x`, `y` and of `acc`. -/
theorem later_step (c : Dev nD) (i : grid0.Coords) (a2 : Memref sig .tc .vmem S2048x512 .f32) (h2 : a2.IsWhole)
    (a3 : Memref sig .tc .vmem S2048x512 .f32) (h3 : a3.IsWhole) (a4 : Memref sig .tc .vmem S1x1x1 .f32) (h4 : a4.IsWhole)
    (hc : ¬cond0_0 i) (x y : Vec F S2048x512 .f32) (acc : Vec F S1x1x1 .f32) :
    out0_B_2 c i a2 h2 a3 h3 a4 h4 hc x y acc = k0_pay1 (k0_pay3 x y) acc := by
  unfold out0_B_2
  rw [View.read_writes_eq_canon _ _ _ (cover0_B_2 c i a2 h2 a3 h3 a4 h4 hc x y acc)]
  unfold kernelRun0_B
  dsimp only
  sl_unfold_words
  rw [View.canon_unit_zero hz3]
  simp only [View.readAt_eq_ld, h2.read_unread, h3.read_unread, h4.read_unread, View.ld_unit_zero (S := S2048x512) hz2,
    View.ld_unit_zero (S := S1x1x1) hz3]

/-- The first step of a run: the output block ends holding the accumulating store's value of the row sums of the input
    blocks and of the zero block stored just before. -/
theorem first_step (c : Dev nD) (i : grid0.Coords) (a2 : Memref sig .tc .vmem S2048x512 .f32) (h2 : a2.IsWhole)
    (a3 : Memref sig .tc .vmem S2048x512 .f32) (h3 : a3.IsWhole) (a4 : Memref sig .tc .vmem S1x1x1 .f32) (h4 : a4.IsWhole)
    (hc : cond0_0 i) (x y : Vec F S2048x512 .f32) :
    out0_A_2 c i a2 h2 a3 h3 a4 h4 hc x y = k0_pay1 (k0_pay3 x y) (k0_pay2 (F := F)) := by
  unfold out0_A_2
  rw [View.read_writes_eq_canon _ _ _ (cover0_A_2 c i a2 h2 a3 h3 a4 h4 hc x y)]
  unfold kernelRun0_A
  dsimp only
  sl_unfold_words
  rw [View.canon_cons_unit_zero (S := S1x1x1) hz3, View.readCov_unit_zero (S := S1x1x1) _ hz3]
  simp only [View.readAt_eq_ld, h2.read_unread, h3.read_unread, View.ld_unit_zero (S := S2048x512) hz2]

end Cert.KernelIdeal.Pieces

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.LibAxisFolds.lean ====
/-
  Sums and maxima along one axis, and the layouts of a pairwise difference, read at an index.

  A pairwise operation between the rows of two matrices is written by spreading each over a third axis: the [a, c] matrix
  viewed as [a, 1, c] and repeated along the middle axis, the [b, c] matrix viewed as [1, b, c] and repeated along the
  first, both [a, b, c]; a reduction over the last axis then leaves one number per pair. The lemmas here read each of
  those steps at an index given by coordinates, for every extent:
  • `shapeCast_ab_a1b_apply`: [a, c] viewed as [a, 1, c] reads, at `(p, u, k)`, the matrix at `(p, k)`;
  • `broadcastTo_a1c_abc_apply`: [a, 1, c] repeated to [a, b, c] reads, at `(p, q, k)`, the operand at `(p, 0, k)`;
  • `broadcastTo_1bc_abc_apply`: [1, b, c] repeated to [a, b, c] reads, at `(p, q, k)`, the operand at `(0, q, k)`;
  • `lastSum3_apply`: over the extended reals the sum of an [a, b, c] array along its last axis reads, at `(p, q)`,
    `∑ k < c` of the array at `(p, q, k)`.
  And for a matrix [a, b] reduced along either axis, over the extended reals:
  • `firstSum_apply`: the sum along the first axis reads, at `q`, `∑ k < a` of the matrix at `(k, q)`;
  • `lastMax_apply` / `firstMax_apply`: the maximum along the last (first) axis is the fold of `max`, from the value of
    the accumulator's word, over the entries of the row (column);
  • `hostLastMax_apply` / `hostFirstMax_apply`: the same for a host reduction with a maximum body, from its initial value.
-/
import Idealize.ShloMosaic.Lib.Pipeline.Value
import Idealize.ShloMosaic.Lib.ValueIdx
import Idealize.ShloMosaic.PureOps.Ideal.Laws

noncomputable section

namespace Cert.Lib.AxisFolds

open Idealize.ShloMosaic Idealize.ShloMosaic.ValueIdx

variable {α : Type}

/-- A matrix [a, c] viewed as [a, 1, c]: entry `(p, u, k)` is entry `(p, k)` of the matrix (the row-major positions
    `(p · 1 + 0) · c + k` and `p · c + k` agree). -/
theorem shapeCast_ab_a1b_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_three, Shape.rowMajor_val_two]
    show p.val * c + k.val = (p.val * 1 + u.val) * c + k.val
    rw [hu, Nat.mul_one, Nat.add_zero])

/-- [a, 1, c] repeated along its middle axis: entry `(p, q, k)` is the operand's entry `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- [1, b, c] repeated along its first axis: entry `(p, q, k)` is the operand's entry `(0, q, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (k : Fin c) :
    broadcastTo ⟨3, ![a, b, c]⟩ v h (ix3 p q k) = v (ix3 (0 : Fin 1) q k) := by
  refine broadcastTo_apply v h (ix3 p q k) (ix3 (0 : Fin 1) q k) fun ax => ?_
  match ax with
  | ⟨0, _⟩ => rfl
  | ⟨1, _⟩ =>
    show q.val = if b = 1 then 0 else q.val
    split
    · have := q.isLt; omega
    · rfl
  | ⟨2, _⟩ =>
    show k.val = if c = 1 then 0 else k.val
    split
    · have := k.isLt; omega
    · rfl

/-- Over the extended reals the sum of an [a, b, c] array along its last axis, read at `(p, q)`, is `∑ k < c` of the array
    at `(p, q, k)`. -/
theorem lastSum3_apply {a b c : ℕ} {φ : FTy} (v : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ v acc h hφ hacc (ix2 p q) = ∑ k : Fin c, v (ix3 p q k) :=
  (Ideal.multiReduction_add_single v acc h hφ hacc (ix2 p q)).trans
    (Finset.sum_congr rfl fun k _ => congrArg v (funext fun d => Fin.ext (by
      match d with
      | ⟨0, _⟩ => rfl
      | ⟨1, _⟩ => rfl
      | ⟨2, _⟩ => rfl)))

/-- Over the extended reals the sum of an [a, b] matrix along its first axis, read at column `q`, is `∑ k < a` of the
    matrix at `(k, q)`. -/
theorem firstSum_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (q : Fin b) :
    multiReduction .add [0] ⟨1, ![b]⟩ v acc h hφ hacc (ix1 q) = ∑ k : Fin a, v (ix2 k q) :=
  (Ideal.multiReduction_add_single v acc h hφ hacc (ix1 q)).trans
    (Finset.sum_congr rfl fun k _ => congrArg v (funext fun d => Fin.ext (by
      match d with
      | ⟨0, _⟩ => rfl
      | ⟨1, _⟩ => rfl)))

/-- Over the extended reals the maximum of an [a, b] matrix along its last axis, read at row `p`, is the fold of `max`,
    from the value of the accumulator's word, over the entries `(p, k)` of the row. -/
theorem lastMax_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ v acc h hφ hacc (ix1 p)
      = (Finset.univ : Finset (Fin b)).fold max (Ideal.ofBits φ acc) fun k => v (ix2 p k) :=
  (Ideal.multiReduction_maximumf_single v acc h hφ hacc (ix1 p)).trans
    (congrArg (fun f => (Finset.univ : Finset (Fin b)).fold max (Ideal.ofBits φ acc) f) (funext fun k =>
      congrArg v (funext fun d => Fin.ext (by
        match d with
        | ⟨0, _⟩ => rfl
        | ⟨1, _⟩ => rfl))))

/-- The same along the first axis: at column `q`, the fold of `max` over the entries `(k, q)` of the column. -/
theorem firstMax_apply {a b : ℕ} {φ : FTy} (v : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (q : Fin b) :
    multiReduction .maximumf [0] ⟨1, ![b]⟩ v acc h hφ hacc (ix1 q)
      = (Finset.univ : Finset (Fin a)).fold max (Ideal.ofBits φ acc) fun k => v (ix2 k q) :=
  (Ideal.multiReduction_maximumf_single v acc h hφ hacc (ix1 q)).trans
    (congrArg (fun f => (Finset.univ : Finset (Fin a)).fold max (Ideal.ofBits φ acc) f) (funext fun k =>
      congrArg v (funext fun d => Fin.ext (by
        match d with
        | ⟨0, _⟩ => rfl
        | ⟨1, _⟩ => rfl))))

/-- A host reduction with a maximum body along the last axis of an [a, b] matrix, over the extended reals: at row `p` the
    fold of `max`, from the initial value, over the entries `(p, k)` of the row. -/
theorem hostLastMax_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) fun k => x (ix2 p k) :=
  (Host.reduce_eq_fold_single (FloatOps.maximumf (F := Ideal) (φ := φ)) x init h' h hu (ix1 p)).trans
    (congrArg (fun f => (Finset.univ : Finset (Fin b)).fold max (init (Shape.Idx.first hu)) f) (funext fun k =>
      congrArg x (funext fun d => Fin.ext (by
        match d with
        | ⟨0, _⟩ => rfl
        | ⟨1, _⟩ => rfl))))

/-- The same along the first axis: at column `q`, the fold of `max`, from the initial value, over the column's entries. -/
theorem hostFirstMax_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.maximumf (F := Ideal) (φ := φ)) x init h' hu (ix1 q)
      = (Finset.univ : Finset (Fin a)).fold max (init (Shape.Idx.first hu)) fun k => x (ix2 k q) :=
  (Host.reduce_eq_fold_single (FloatOps.maximumf (F := Ideal) (φ := φ)) x init h' h hu (ix1 q)).trans
    (congrArg (fun f => (Finset.univ : Finset (Fin a)).fold max (init (Shape.Idx.first hu)) f) (funext fun k =>
      congrArg x (funext fun d => Fin.ext (by
        match d with
        | ⟨0, _⟩ => rfl
        | ⟨1, _⟩ => rfl))))

end Cert.Lib.AxisFolds

end
-- ==== Proof.BlockSum.lean ====
/-
  What the kernel's body computes from one pair of blocks, over the extended reals.

  At a grid point the body holds a block of labels and a block of predictions, each 2048 rows of 512 lanes.  It forms
  the weighted squared error of every element, the weight a sum of steps (Weights.lean `stepTerm`); sums each row along
  its 512 lanes, keeping a column of 2048 row sums; sums that column along its 2048 rows into one number; and adds the
  number to what its one-element output block holds.  Read at an index:
  • `rowSums_apply`: the column's entry in row `r` is the sum over the lanes `q` of the element errors of row `r`;
  • `accumulate_apply`: the new output entry is the old entry plus the sum over the rows of a column's entries;
  • `cleared_apply`: the block stored on the first step of a run is zero.
  A sum along an axis with the zero accumulator is the plain finite sum; viewing a vector as a column, or a 1×1 matrix
  as a 1×1×1 block, moves no element.
-/
import proofs.«147176_j833223655948_2_alg».proof.Proof.Gen.KernelIdeal.Skeleton
import proofs.«147176_j833223655948_2_alg».proof.Proof.Weights
import proofs.«147176_j833223655948_2_alg».proof.Proof.LibKeepdims
import proofs.«147176_j833223655948_2_alg».proof.Proof.LibAxisFolds
import Idealize.ShloMosaic.Lib.Pipeline.Value
import Idealize.ShloMosaic.Lib.ValueIdx
import Idealize.ShloMosaic.PureOps.Ideal.Laws

noncomputable section

namespace Cert.KernelIdeal.BlockValue

open Idealize.ShloMosaic Idealize.ShloMosaic.ValueIdx
open Cert.KernelIdeal Cert.KernelIdeal.Gen Cert.WeightedError

/-- The one index of a one-element block. -/
theorem idx_S1x1x1 (i : S1x1x1.Idx) : i = ix3 (0 : Fin 1) (0 : Fin 1) (0 : Fin 1) := by
  funext d
  apply Fin.ext
  match d with
  | ⟨0, _⟩ => have h : (i 0).val < 1 := (i 0).isLt; show (i 0).val = 0; omega
  | ⟨1, _⟩ => have h : (i 1).val < 1 := (i 1).isLt; show (i 1).val = 0; omega
  | ⟨2, _⟩ => have h : (i 2).val < 1 := (i 2).isLt; show (i 2).val = 0; omega

/-- The column of row sums: in row `r`, the sum over the 512 lanes of the element errors of that row. -/
theorem rowSums_apply (x0 x1 : Vec Ideal S2048x512 .f32) (r : Fin 2048) (u : Fin 1) :
    k0_pay3 (F := Ideal) x0 x1 (ix2 r u) = ∑ q : Fin 512, stepTerm (x0 (ix2 r q)) (x1 (ix2 r q)) := by
  unfold k0_pay3
  simp only [shapeCast_self]
  refine (Cert.Lib.Keepdims.shapeCast_a_a1_apply _ _ r u).trans ?_
  refine (Cert.Lib.Keepdims.laneSum_apply _ _ _ _ _ r).trans ?_
  rfl

/-- The accumulating store's value: the old entry plus the sum of the column over its 2048 rows. -/
theorem accumulate_apply (col : FVec Ideal S2048x1 .f32) (old : Vec Ideal S1x1x1 .f32) (i : S1x1x1.Idx) :
    k0_pay1 (F := Ideal) col old i = old i + ∑ r : Fin 2048, col (ix2 r (0 : Fin 1)) := by
  unfold k0_pay1
  simp only [shapeCast_self]
  rw [idx_S1x1x1 i]
  refine congrArg (fun z => old (ix3 (0 : Fin 1) (0 : Fin 1) (0 : Fin 1)) + z) ?_
  refine (shapeCast_apply _ _ _ (ix2 (0 : Fin 1) (0 : Fin 1)) (by
    rw [Shape.rowMajor_val_two, Shape.rowMajor_val_three]; rfl)).trans ?_
  refine (Cert.Lib.Keepdims.shapeCast_a_a1_apply _ _ (0 : Fin 1) (0 : Fin 1)).trans ?_
  exact Cert.Lib.AxisFolds.firstSum_apply _ _ _ _ _ (0 : Fin 1)

/-- The block stored when a run starts is zero. -/
theorem cleared_apply (i : S1x1x1.Idx) : k0_pay2 (F := Ideal) i = 0 := by
  unfold k0_pay2
  exact Ideal.ofBits_zero_f32

end Cert.KernelIdeal.BlockValue

end
-- ==== Proof.Partials.lean ====
/-
  The kernel's [2, 1, 1] result array: two partial sums.

  The grid is 2 × 8.  Along the second axis the one-element output block stays in place: it is cleared on the first of
  the eight steps and at every step the total of the current block of 2048 × 512 element errors is added to it; after
  the eighth step it is written to entry `p` of the result.  So after the step `s` of run `p` the block holds
  zero plus the totals of the blocks `8 p … 8 p + s` (`running_total`, the library's fold over a run of points, opened at
  an index), and the result array ends holding, at `(p, 0, 0)`, zero plus the totals of the eight blocks `8 p … 8 p + 7`
  (`partials`, `result_array`).  The total of block `n` is the sum over its rows and lanes of the element errors of the
  elements `(n · 2048 + r) · 512 + q` of the arguments' row-major lists (`blockTotal`), the weight of each error turned
  from its sum-of-steps form into the chain of choices (Weights.lean).
-/
import proofs.«147176_j833223655948_2_alg».proof.Proof.Blocks
import proofs.«147176_j833223655948_2_alg».proof.Proof.Pieces
import proofs.«147176_j833223655948_2_alg».proof.Proof.BlockSum

noncomputable section

namespace Cert.KernelIdeal.Partials

open Idealize.ShloMosaic Idealize.ShloMosaic.TcCoe Idealize.SL.Sem Idealize.ShloMosaic.ValueIdx
open Idealize.ShloMosaic.Pipeline (Dat)
open Cert.KernelIdeal Cert.KernelIdeal.Gen Cert.WeightedError
open Cert.KernelIdeal.Blocks Cert.KernelIdeal.Pieces Cert.KernelIdeal.BlockValue

variable (m : (ℓ : Loc nD τ sig) → Buf (Elt Ideal) ℓ)

/-- The labels and the predictions, as the kernel's memory holds them at launch. -/
abbrev labels (c : Dev nD) : SArg.Idx → EReal := m ((c : Thread nD τ).loc main_arg0)
abbrev predictions (c : Dev nD) : SArg.Idx → EReal := m ((c : Thread nD τ).loc main_arg1)

/-- The total of block `n`: its 2048 rows of 512 lanes of element errors. -/
def blockTotal (c : Dev nD) (n : ℕ) : EReal :=
  ∑ r : Fin 2048, ∑ q : Fin 512, flatTerm (labels m c) (predictions m c) ((n * 2048 + r.val) * 512 + q.val)

/-- One step of the accumulation on blocks `x`, `y` that hold the elements of block `n` of the two arguments: the entry
    becomes the old entry plus the block's total. -/
theorem step_total (L P : SArg.Idx → EReal) (x y : Vec Ideal S2048x512 .f32) (acc : Vec Ideal S1x1x1 .f32) (i : S1x1x1.Idx)
    (n : ℕ) (hn : n < 16)
    (hx : ∀ (r : Fin 2048) (q : Fin 512) (h : (n * 2048 + r.val) * 512 + q.val < 16777216),
      x (ix2 r q) = L (flatIdx ((n * 2048 + r.val) * 512 + q.val) h))
    (hy : ∀ (r : Fin 2048) (q : Fin 512) (h : (n * 2048 + r.val) * 512 + q.val < 16777216),
      y (ix2 r q) = P (flatIdx ((n * 2048 + r.val) * 512 + q.val) h)) :
    k0_pay1 (F := Ideal) (k0_pay3 x y) acc i
      = acc i + ∑ r : Fin 2048, ∑ q : Fin 512, flatTerm L P ((n * 2048 + r.val) * 512 + q.val) := by
  rw [accumulate_apply]
  refine congrArg (fun z => acc i + z) (Finset.sum_congr rfl fun r _ => ?_)
  rw [rowSums_apply]
  refine Finset.sum_congr rfl fun q _ => ?_
  have h : (n * 2048 + r.val) * 512 + q.val < 16777216 := by
    have := r.isLt; have := q.isLt; omega
  rw [stepTerm_eq_bucketTerm, hx r q h, hy r q h]
  unfold flatTerm
  rw [dif_pos h]

/-- The same at grid point `t`, on the blocks the windows hold there. -/
theorem step_at (c : Dev nD) (n : ℕ) (h : n < cfg0.N) (acc : Vec Ideal S1x1x1 .f32) (i : S1x1x1.Idx) :
    k0_pay1 (F := Ideal) (k0_pay3 (iblk m c 0 ⟨n, h⟩) (iblk m c 1 ⟨n, h⟩)) acc i = acc i + blockTotal m c n :=
  step_total (labels m c) (predictions m c) (iblk m c 0 ⟨n, h⟩) (iblk m c 1 ⟨n, h⟩) acc i n
    (lt_of_lt_of_eq h (show cfg0.N = 16 from N_0))
    (fun r q hh => labels_apply m c ⟨n, h⟩ r q hh) (fun r q hh => predictions_apply m c ⟨n, h⟩ r q hh)

/-- What a run's first step leaves, and what each later step makes of what the step before left. -/
def firstOf (c : Dev nD) (n : ℕ) (h : n < cfg0.N) : S1x1x1.Idx → EReal :=
  k0_pay1 (F := Ideal) (k0_pay3 (iblk m c 0 ⟨n, h⟩) (iblk m c 1 ⟨n, h⟩)) (k0_pay2 (F := Ideal))
def nextOf (c : Dev nD) (n : ℕ) (h : n < cfg0.N) (acc : S1x1x1.Idx → EReal) : S1x1x1.Idx → EReal :=
  k0_pay1 (F := Ideal) (k0_pay3 (iblk m c 0 ⟨n, h⟩) (iblk m c 1 ⟨n, h⟩)) acc

/-- After the last step of run `p` the output block holds zero plus the totals of the run's eight blocks. -/
theorem running_total (c : Dev nD) (p : ℕ) (h : 8 * p + 7 < cfg0.N) (i : S1x1x1.Idx) :
    outsAt0 m c (8 * p + 7) h i = 0 + ∑ s ∈ Finset.range 8, blockTotal m c (8 * p + s) := by
  have fold := Pipeline.eq_accAt (N := cfg0.N) (fun n hn => (outsAt0 m c n hn : S1x1x1.Idx → EReal)) 8
    (firstOf m c) (nextOf m c)
    (fun n hn h0 => (outsAt0_A m c ⟨n, hn⟩ h0).trans (first_step c _ _ _ _ _ _ _ _ _ _))
    (fun n hn hs => (outsAt0_B m c ⟨n + 1, hn⟩ hs).trans (later_step c _ _ _ _ _ _ _ _ _ _ _))
    p 7 (by norm_num) h
  refine (congrFun fold i).trans ?_
  exact Pipeline.accAt_add_apply (firstOf m c) (nextOf m c) (fun _ => (0 : EReal)) (fun n _ => blockTotal m c n) (8 * p) 7
    (fun hb j => (step_at m c (8 * p) hb _ j).trans (by rw [cleared_apply]))
    (fun n hn acc j _ _ => step_at m c n hn acc j) 7 (le_refl 7) h i

/-- The result array: at `(p, 0, 0)`, zero plus the totals of the blocks `8 p … 8 p + 7`. -/
def partials (c : Dev nD) : S2x1x1.Idx → EReal :=
  fun j => 0 + ∑ s ∈ Finset.range 8, blockTotal m c (8 * (j 0).val + s)

/-- The write-back after the last step of a run writes the run's entry of `partials`. -/
theorem flushed_eq (c : Dev nD) (t : Fin cfg0.N) (hf : (cfg0.win 2).flush t = true) :
    (dats m 0 c).flushed 2 t = ((cfg0.win 2).blk t).view.read (Elt Ideal) (partials m c) := by
  have h7 : t.val % 8 = 7 := (flush0_2 t).mp hf
  obtain ⟨n, hn⟩ := t
  obtain ⟨p, rfl⟩ : ∃ p, n = 8 * p + 7 := ⟨n / 8, by dsimp only at h7; omega⟩
  funext y
  have e1 : (dats m 0 c).flushed 2 ⟨8 * p + 7, hn⟩ y
      = outsAt0 m c (8 * p + 7) hn ((cfg0.win 2).xinj (grid0.coords ⟨8 * p + 7, hn⟩) y) := by
    show (dats m 0 c).after 2 ⟨8 * p + 7, hn⟩ _ = _
    rw [after0_2]
  rw [e1, running_total m c p hn, View.read_apply]
  unfold partials
  have e2 : ((((cfg0.win 2).blk ⟨8 * p + 7, hn⟩).view.emb y) 0).val = p := by
    have hy : (y 0).val < 1 := (y 0).isLt
    show win0_2.index ⟨8 * p + 7, hn⟩ 0 * 1 + 1 * (y 0).val = p
    rw [(index_facts ⟨8 * p + 7, hn⟩).2.2.2.2]
    dsimp only
    omega
  rw [e2]
  exact (cast_eq _ _).symm

/-- Every entry of the result is written by the last step of its run. -/
theorem covered (c : Dev nD) (i : S2x1x1.Idx) :
    ∃ t : Fin cfg0.N, (cfg0.win 2).flush t = true ∧ i ∈ ((cfg0.win 2).blk t).view.set := by
  have hN : cfg0.N = 16 := N_0
  have h0 : (i 0).val < 2 := (i 0).isLt
  have h1 : (i 1).val < 1 := (i 1).isLt
  have h2 : (i 2).val < 1 := (i 2).isLt
  have ht : 8 * (i 0).val + 7 < cfg0.N := by omega
  refine ⟨⟨8 * (i 0).val + 7, ht⟩, (flush0_2 _).mpr (by dsimp only; omega), ?_⟩
  show i ∈ ((View.whole main_v2).slice (win0_2.rect ⟨8 * (i 0).val + 7, ht⟩)).set
  rw [View.set_slice_whole, Rect.mem_set_unit]
  intro a
  match a with
  | ⟨0, _⟩ =>
    show win0_2.index ⟨8 * (i 0).val + 7, ht⟩ 0 * 1 ≤ (i 0).val ∧ (i 0).val < win0_2.index ⟨8 * (i 0).val + 7, ht⟩ 0 * 1 + 1
    rw [(index_facts ⟨8 * (i 0).val + 7, ht⟩).2.2.2.2]
    dsimp only
    omega
  | ⟨1, _⟩ =>
    show win0_2.index ⟨8 * (i 0).val + 7, ht⟩ 1 * 1 ≤ (i 1).val ∧ (i 1).val < win0_2.index ⟨8 * (i 0).val + 7, ht⟩ 1 * 1 + 1
    rw [show win0_2.index ⟨8 * (i 0).val + 7, ht⟩ 1 = 0 from rfl]
    omega
  | ⟨2, _⟩ =>
    show win0_2.index ⟨8 * (i 0).val + 7, ht⟩ 2 * 1 ≤ (i 2).val ∧ (i 2).val < win0_2.index ⟨8 * (i 0).val + 7, ht⟩ 2 * 1 + 1
    rw [show win0_2.index ⟨8 * (i 0).val + 7, ht⟩ 2 = 0 from rfl]
    omega

/-- So the result array ends holding the two partial sums. -/
theorem result_array (c : Dev nD) : (dats m 0 c).arrAt 2 cfg0.N = partials m c :=
  (dats m 0 c).arrAt_eq_of_cover 2 (partials m c) (flushed_eq m c) (covered c)

end Cert.KernelIdeal.Partials

end
-- ==== Proof.KernelValue.lean ====
/-
  The kernel's result is the mean of the bucket-weighted squared errors.

  After the grid has run, the [2, 1, 1] result array holds the two partial sums (Partials.lean).  The program then adds
  the two from zero and divides by 2²⁴.  The two partial sums together run over the sixteen blocks `8 p + s`, each block
  over its 2048 rows of 512 lanes, and element `q` of row `r` of block `n` is element `(n · 2048 + r) · 512 + q` of the
  arguments' row-major lists: every element once.  Adding a zero changes nothing and a finite sum on the extended reals
  may be grouped at will (Mean.lean `sum_by_blocks`), so the total is the sum over the whole list and the result is
  `meanError` of the arguments as launched (`result_value`, `run`).
-/
import proofs.«147176_j833223655948_2_alg».proof.Proof.Partials
import Idealize.ShloMosaic.Lib.StableHlo.Run
import Idealize.ShloMosaic.Lib.Tactic
import Idealize.ShloMosaic.PureOps.Ideal.Laws

noncomputable section

namespace Cert.KernelIdeal.KernelValue

open Idealize.ShloMosaic Idealize.ShloMosaic.TcCoe Idealize.SL.Sem Idealize.ShloMosaic.ValueIdx
open Idealize.ShloMosaic.Pipeline (Dat)
open Cert.KernelIdeal Cert.KernelIdeal.Gen Cert.WeightedError Cert.KernelIdeal.Partials

variable (m : (ℓ : Loc nD τ sig) → Buf (Elt Ideal) ℓ) (ρ : Dev nD → PrngReg)

/-- The lines after the kernel: the sum of the result array from zero, divided by the constant 2²⁴. -/
theorem tail_result (c : Dev nD) :
    Pipeline.afterTail₀ cfgs (dats m) 0 (V0 m) [hostOps1] c main_v4
      = Host.divf (Host.reduceAdd (F := Ideal) (partials m c) (constant (F := Ideal) S_ .f32 0x00000000#32) reducesTo_S2x1x1_S_d0_1_2 h_S_)
          (constant (F := Ideal) S_ .f32 0x4B800000#32) := by
  have e : Pipeline.withArrays (cfgs 0).spec c (V0 m c) (fun w => (dats m 0 c).arrAt w (cfgs 0).N) (Proc.devRef .tc main_v2)
      = partials m c :=
    (Pipeline.withArrays_arr spec0 launch0.win.arr_inj c _ _ 2).trans (result_array m c)
  unfold Pipeline.afterTail₀
  show StableHlo.after hostOps1 _ (Proc.devRef .tc main_v4) = _
  after_results
  rw [e]

/-- A sum of a [2, 1, 1] array over all its axes, from zero: zero plus the two entries. -/
theorem sum_all (x : S2x1x1.Idx → EReal) (i : S_.Idx) :
    Host.reduceAdd (F := Ideal) x (constant (F := Ideal) S_ .f32 0x00000000#32) reducesTo_S2x1x1_S_d0_1_2 h_S_ i
      = Ideal.ofBits .f32 0x00000000#32 + ∑ p : Fin 2, x (ix3 p (0 : Fin 1) (0 : Fin 1)) := by
  simp only [Host.reduceAdd, Ideal.hostReduceAdd_def]
  refine (Ideal.hostReduceAdd_total reducesTo_S2x1x1_S_d0_1_2 (fun b => b.elim0) x _ i).trans ?_
  rw [Cert.Lib.FlatSums.sum_idx_n11]
  rfl

/-- The two partial sums together are the sum over the whole list of elements. -/
theorem partials_total (c : Dev nD) :
    ∑ p : Fin 2, partials m c (ix3 p (0 : Fin 1) (0 : Fin 1))
      = ∑ k : Fin 16777216, flatTerm (labels m c) (predictions m c) k.val := by
  refine Eq.trans (Finset.sum_congr rfl fun p _ => ?_) (sum_by_blocks (flatTerm (labels m c) (predictions m c)))
  unfold partials
  rw [zero_add]
  rfl

/-- The kernel's result. -/
theorem result_value (c : Dev nD) (i : S_.Idx) :
    Pipeline.afterTail₀ cfgs (dats m) 0 (V0 m) [hostOps1] c main_v4 i = meanError (labels m c) (predictions m c) := by
  rw [tail_result]
  show FloatOps.hostDivf (Host.reduceAdd (F := Ideal) (partials m c) (constant (F := Ideal) S_ .f32 0x00000000#32) reducesTo_S2x1x1_S_d0_1_2 h_S_ i) _ = _
  rw [sum_all, partials_total]
  rfl

/-- The kernel's run, read: the result at the mean error of the arguments as launched, the arguments unchanged. -/
theorem run : θ_run defs (onTc (τ := τ) (main (F := Ideal))) ⟨m, fun _ => 0, ρ⟩ fun r => ∀ c : Dev nD,
      r.2.mem ((c.tc : Thread nD τ).loc main_v4) = (fun _ => meanError (labels m c) (predictions m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v4 (Pipeline.mem_restRefs_of main_v4 (by decide) (by decide))).trans (funext fun i => result_value m c i),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelValue

end
-- ==== Proof.RefValue.lean ====
/-
  The reference's result is the mean of the bucket-weighted squared errors.

  The reference lists each argument's 16,777,216 elements in row-major order, forms the weight of every label as a chain
  of choices, multiplies it twice by the difference of label and prediction, sums all the products from zero and divides
  by 2²⁴.  Read one operation at a time, element `k` of the product list is the weighted squared error of element `k` of
  the two arguments (`element_apply`), so the result is `meanError` of the arguments (`result_eq`).
-/
import proofs.«147176_j833223655948_2_alg».proof.Proof.Gen.ReferenceIdeal.Read
import proofs.«147176_j833223655948_2_alg».proof.Proof.Mean

noncomputable section

namespace Cert.ReferenceIdeal.RefValue

open Idealize.ShloMosaic Idealize.ShloMosaic.ValueIdx
open Cert.ReferenceIdeal Cert.ReferenceIdeal.Gen Cert.ReferenceIdeal.Read Cert.WeightedError

/-- Number `k` of the flat list of the first argument is its element `k` in row-major order. -/
theorem idx_labels (k : Fin 16777216) : idx_main_v0 (ix1 k) = flatIdx k.val k.isLt := by
  funext a
  match a with
  | ⟨0, _⟩ => rfl
  | ⟨1, _⟩ => rfl
  | ⟨2, _⟩ => rfl
  | ⟨3, _⟩ => rfl

/-- The same for the second argument. -/
theorem idx_predictions (k : Fin 16777216) : idx_main_v1 (ix1 k) = flatIdx k.val k.isLt := by
  funext a
  match a with
  | ⟨0, _⟩ => rfl
  | ⟨1, _⟩ => rfl
  | ⟨2, _⟩ => rfl
  | ⟨3, _⟩ => rfl

/-- Entry `j` of the list of products: the weighted squared error of the two arguments' elements at `j`. -/
theorem element_apply (x0 x1 : (⟨S64x1x512x512, .f32⟩ : BufTy).Contents (Elt Ideal)) (j : S16777216.Idx) :
    val_main_v32 (F := Ideal) x0 x1 j = bucketTerm (x0 (idx_main_v0 j)) (x1 (idx_main_v1 j)) := by
  simp only [val_main_v0_apply, val_main_v1_apply, val_main_cst_apply, val_main_v2_apply, val_main_cst_0_apply, val_main_v3_apply, val_main_v4_apply, val_main_cst_1_apply, val_main_v5_apply, val_main_v6_apply, val_main_v7_apply, val_main_cst_2_apply, val_main_call0_v0_apply, val_main_call0_v1_apply, val_main_v8_apply, val_main_cst_3_apply, val_main_v9_apply, val_main_v10_apply, val_main_cst_4_apply, val_main_v11_apply, val_main_v12_apply, val_main_v13_apply, val_main_cst_5_apply, val_main_call1_v0_apply, val_main_call1_v1_apply, val_main_v14_apply, val_main_cst_6_apply, val_main_v15_apply, val_main_v16_apply, val_main_cst_7_apply, val_main_v17_apply, val_main_v18_apply, val_main_v19_apply, val_main_cst_8_apply, val_main_call2_v0_apply, val_main_call2_v1_apply, val_main_v20_apply, val_main_cst_9_apply, val_main_v21_apply, val_main_v22_apply, val_main_cst_10_apply, val_main_v23_apply, val_main_v24_apply, val_main_v25_apply, val_main_cst_11_apply, val_main_call3_v0_apply, val_main_call3_v1_apply, val_main_v26_apply, val_main_cst_12_apply, val_main_v27_apply, val_main_v28_apply, val_main_cst_13_apply, val_main_call4_v0_apply, val_main_call4_v1_apply, val_main_v29_apply, val_main_v30_apply, val_main_v31_apply, val_main_v32_apply]
  rfl

/-- The reference's result. -/
theorem result_eq (x0 x1 : (⟨S64x1x512x512, .f32⟩ : BufTy).Contents (Elt Ideal)) (i : S_.Idx) :
    val_main_v34 (F := Ideal) x0 x1 i = meanError x0 x1 := by
  have hs : ∑ j : S16777216.Idx, val_main_v32 (F := Ideal) x0 x1 j = ∑ k : Fin 16777216, flatTerm x0 x1 k.val := by
    rw [Cert.Lib.FlatSums.sum_idx1]
    refine Finset.sum_congr rfl fun k _ => ?_
    rw [element_apply, idx_labels, idx_predictions]
    unfold flatTerm
    rw [dif_pos k.isLt]
  rw [val_main_v34_apply, val_main_v33_apply, hs]
  rfl

end Cert.ReferenceIdeal.RefValue

end
-- ==== Proof.lean ====
/-
  The certificate of a bucket-weighted mean squared error: a kernel that streams two [64, 1, 512, 512] arrays through a
  2 × 8 grid of 2048 × 512 blocks, against the plain formula over the flattened arrays.

  Every label gets a weight by the bucket it lies in (0 below zero, then 1, 2, 5, 10, and 30 from sixty on); the result is
  the sum over all 2²⁴ elements of weight · (label − prediction)², divided by 2²⁴.  The kernel writes the weight as a sum
  of steps, the reference as a chain of choices; on the extended reals the two are one function (Proof/Weights.lean).  The
  kernel sums lane by lane, row by row, block by block into two partial sums and adds those; the reference sums the flat
  list.  Addition on the extended reals is commutative and associative, so both are one number (Proof/Mean.lean).  Neither
  step uses distributivity, so the finiteness of the inputs is never opened.

  The modules: Proof/Weights.lean (the two weights agree), Proof/Mean.lean (the result as one formula; regrouping the
  sum), Proof/BlockSum.lean (what the body computes from a pair of blocks), Proof/Pieces.lean (what the body leaves in its
  output block), Proof/Blocks.lean (which elements a block holds), Proof/Partials.lean (the two partial sums),
  Proof/KernelValue.lean (the kernel's result), Proof/RefValue.lean (the reference's result).
-/
import proofs.«147176_j833223655948_2_alg».proof.Defs
import proofs.«147176_j833223655948_2_alg».proof.Proof.Gen.Kernel
import proofs.«147176_j833223655948_2_alg».proof.Proof.Gen.Kernel.Skeleton
import proofs.«147176_j833223655948_2_alg».proof.Proof.Gen.Kernel.Launch
import proofs.«147176_j833223655948_2_alg».proof.Proof.Gen.Kernel.Points
import proofs.«147176_j833223655948_2_alg».proof.Proof.Gen.Kernel.Frame
import proofs.«147176_j833223655948_2_alg».proof.Proof.Gen.KernelIdeal
import proofs.«147176_j833223655948_2_alg».proof.Proof.Gen.KernelIdeal.Skeleton
import proofs.«147176_j833223655948_2_alg».proof.Proof.Gen.KernelIdeal.Launch
import proofs.«147176_j833223655948_2_alg».proof.Proof.Gen.KernelIdeal.Points
import proofs.«147176_j833223655948_2_alg».proof.Proof.Gen.KernelIdeal.Frame
import proofs.«147176_j833223655948_2_alg».proof.Proof.Gen.ReferenceIdeal
import proofs.«147176_j833223655948_2_alg».proof.Proof.Gen.Pre_finite_inputs
import proofs.«147176_j833223655948_2_alg».proof.Proof.Gen.ReferenceIdeal.Run
import proofs.«147176_j833223655948_2_alg».proof.Proof.Gen.ReferenceIdeal.Read
import proofs.«147176_j833223655948_2_alg».proof.Proof.KernelValue
import proofs.«147176_j833223655948_2_alg».proof.Proof.RefValue
import Idealize.ShloMosaic.Adequacy
import Idealize.ShloMosaic.Init

noncomputable section

namespace Cert.Proof

open Idealize.ShloMosaic Idealize.SL.Sem Cert.Kernel

/-- The word-level kernel runs and leaves its arguments as they were. -/
theorem frame_kernel : Cert.frame_Kernel :=
  fun m ρ _ => Cert.Kernel.Gen.frame m ρ

/-- So does the kernel read on the extended reals. -/
theorem frame_kernelIdeal : Cert.frame_KernelIdeal :=
  fun m ρ _ => Cert.KernelIdeal.Gen.frame m ρ

/-- The reference runs and leaves its arguments as they were: its run, the result dropped. -/
theorem frame_reference : Cert.frame_ReferenceIdeal :=
  fun m ρ _ => (θ_run Cert.ReferenceIdeal.defs _ _).mono (fun _ h c => (h c).2) (Cert.ReferenceIdeal.Value.run (F := Ideal) m ρ)

/-- On the extended reals both programs end with the mean error of the kernel's arguments: the kernel by its blocks and
    partial sums, the reference by its flat list, of arguments that agree. -/
theorem algebraic : Cert.algebraic_KernelIdeal_ReferenceIdeal := by
  intro m ρ m' ρ' _ hagree
  refine ⟨fun c _ => Cert.WeightedError.meanError (Cert.KernelIdeal.Partials.labels m c) (Cert.KernelIdeal.Partials.predictions m c),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2]
  exact funext fun i => Cert.ReferenceIdeal.RefValue.result_eq _ _ i

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
